-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S2048x2048 : Shape := ⟨2, ![2048, 2048]⟩
abbrev S_ : Shape := ⟨0, ![]⟩
abbrev S2048 : Shape := ⟨1, ![2048]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  reducesTo_S_S_d : S_.ReducesTo [] S_
  bcast_S_S2048 : S_.BroadcastsInDim S2048 (![] : Fin 0 → Fin S2048.rank)
  reducesTo_S2048_S_d0 : S2048.ReducesTo [0] S_

variable [Facts]

def fn_part1 {F : FTy → Type} [FloatOps F] (main_v12 : IVec S_ 1) (main_v15 : IVec S2048 1) (main_c_5 : IVec S_ 1) : IVec S_ 1 :=
  let main_v16 : IVec S_ 1 := (fun x v => Host.reduce IntOp.andi x v reducesTo_S2048_S_d0 h_S_) main_v15 main_c_5
  let main_v17 : IVec S_ 1 := andi main_v12 main_v16
  main_v17

def fn {F : FTy → Type} [FloatOps F] (main_arg0 : FVec F S4x2048x2048 .f32) (main_arg1 : FVec F S2048x2048 .f32) (main_arg2 : FVec F S_ .f32) (main_arg3 : FVec F S2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S2048 .f32 := Host.absf main_arg3
  let main_cst_4 : FVec F S_ .f32 := constant S_ .f32 0x7F800000#32
  let main_v14 : FVec F S2048 .f32 := broadcastInDim S2048 ![] bcast_S_S2048 main_cst_4
  let main_v15 : IVec S2048 1 := cmpf .olt main_v13 main_v14
  let main_c_5 : IVec S_ 1 := constantI S_ 1 1#1
  fn_part1 (F := F) main_v12 main_v15 main_c_5
-- ==== Kernel.lean ====
abbrev S4x2048x2048 : Shape := ⟨3, ![4, 2048, 2048]⟩
abbrev S2048x2048 : Shape := ⟨2, ![2048, 2048]⟩
abbrev S_ : Shape := ⟨0, ![]⟩
abbrev S2048 : Shape := ⟨1, ![2048]⟩
abbrev S8192x2048 : Shape := ⟨2, ![8192, 2048]⟩
abbrev S1x1 : Shape := ⟨2, ![1, 1]⟩
abbrev S1x2048 : Shape := ⟨2, ![1, 2048]⟩
abbrev S512x2048 : Shape := ⟨2, ![512, 2048]⟩

abbrev nBuf : Space → Nat
  | .hbm => 14
  | .vmem => 7
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S_, .f32⟩
  | .hbm, ⟨3, _⟩ => ⟨S2048, .f32⟩
  | .hbm, ⟨4, _⟩ => ⟨S8192x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1x1, .f32⟩
  | .hbm, ⟨10, _⟩ => ⟨S1x2048, .f32⟩
  | .hbm, ⟨11, _⟩ => ⟨S2048x2048, .bf16⟩
  | .hbm, ⟨12, _⟩ => ⟨S8192x2048, .f32⟩
  | .hbm, ⟨13, _⟩ => ⟨S4x2048x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S1x2048, .f32⟩
  | .local _ .vmem, ⟨4, _⟩ => ⟨S1x1, .f32⟩
  | .local _ .vmem, ⟨5, _⟩ => ⟨S512x2048, .f32⟩
  | .local _ .vmem, ⟨6, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x2048x2048_S8192x2048 : S4x2048x2048.ShapeCasts S8192x2048
  shapeCasts_S_S1x1 : S_.ShapeCasts S1x1
  shapeCasts_S2048_S1x2048 : S2048.ShapeCasts S1x2048
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S8192x2048_S4x2048x2048 : S8192x2048.ShapeCasts S4x2048x2048
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S8192x2048.size a
  hwx0_4 : ∀ i : grid0.Coords, EltTy.bits .f32 = 32 ∨ (Rect.block (s := S8192x2048) S512x2048.size (cc0_transform_4 i) (hinb0_4 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S2048x2048 : Shape := ⟨2, ![2048, 2048]⟩
abbrev S_ : Shape := ⟨0, ![]⟩
abbrev S2048 : Shape := ⟨1, ![2048]⟩
abbrev S8192x2048 : Shape := ⟨2, ![8192, 2048]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S_, .f32⟩
  | .hbm, ⟨3, _⟩ => ⟨S2048, .f32⟩
  | .hbm, ⟨4, _⟩ => ⟨S8192x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_cst_1 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]

class Facts₀ : Prop where
  shapeCasts_S4x2048x2048_S8192x2048 : S4x2048x2048.ShapeCasts S8192x2048
  shapeCasts_S_S_ : S_.ShapeCasts S_
  bcast_S_S8192x2048 : S_.BroadcastsInDim S8192x2048 (![] : Fin 0 → Fin S8192x2048.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  shapeCasts_S8192x2048_S4x2048x2048 : S8192x2048.ShapeCasts S4x2048x2048
  dot_S8192x2048_S2048x2048_S8192x2048_1_0_0_1_n_n_wf : DotDims.WF S8192x2048 S2048x2048 S8192x2048 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.Spec.lean ====
/-
  The result both programs compute, as ONE function of the argument arrays, and the one law that joins them.

  A token row x (2048 features) is quantised entry by entry with a scalar scale s: the entry x_k is divided by
  max(s, ε), rounded to the nearest integer (ties to even) and clamped to [-127, 127]; the quantised row is multiplied
  by the weight matrix W (2048 by 2048) and the bias b is added:

      out(p, q) = Σ_k clamp(round(X(p, k) / max(s, ε))) · W(k, q) + b(q).

  One program divides each entry by max(s, ε); the other multiplies it by the reciprocal 1 / max(s, ε), computed once.
  On the extended reals the quotient x / y is x · y⁻¹ whenever y ≠ 0, so x · (1 / y) = x · (1 · y⁻¹) = x · y⁻¹ = x / y for
  EVERY extended real x (finite or not), and the divisor max(s, ε) is never 0 because ε > 0. Nothing else differs: a sum
  of products over the extended reals does not depend on how it is grouped or tiled, and a change of float format is the
  identity there.
-/
import Idealize.ShloMosaic.PureOps.Ideal.Laws
import Idealize.ShloMosaic.Lib.ValueIdx

noncomputable section

open scoped BigOperators

namespace Cert.QuantLinear

open Idealize.ShloMosaic Idealize.ShloMosaic.ValueIdx

/-! ## The scale -/

/-- ε, the float the scale is clamped below by (the f32 nearest to 1e-8), as the extended real its pattern denotes. -/
def eps : EReal := Ideal.ofBits .f32 0x322BCC77#32

/-- The pattern of ε denotes a positive real (11258999 · 2⁻⁵⁰). -/
theorem eps_pos : 0 < eps := by
  unfold eps
  simp [Ideal.ofBits, Ideal.ieee, -EReal.coe_mul]

/-- The divisor: the scale clamped below by ε. -/
def scale (s : EReal) : EReal := max s eps

/-- It is never zero: it is at least ε, which is positive. -/
theorem scale_ne_zero (s : EReal) : scale s ≠ 0 :=
  ne_of_gt (lt_of_lt_of_le eps_pos (le_max_right s eps))

/-- The pattern of the float 1.0 denotes 1. -/
theorem ofBits_one : Ideal.ofBits .f32 0x3F800000#32 = 1 := by
  simp [Ideal.ofBits, Ideal.ieee, -EReal.coe_mul] <;> norm_num

/-- The reciprocal of the clamped scale, as the quotient of the float 1.0 by it. -/
def recip (s : EReal) : EReal := Ideal.div (Ideal.ofBits .f32 0x3F800000#32) (scale s)

theorem recip_eq (s : EReal) : recip s = Ideal.div 1 (scale s) := by
  unfold recip
  rw [ofBits_one]

/-! ## The law: multiplying by the reciprocal is dividing -/

/-- Off zero the quotient is the product with the inverse, and the reciprocal 1 / y is that inverse: so the product
    with the reciprocal is the quotient, for every extended real x. -/
theorem mul_recip_eq_div (x y : EReal) (hy : y ≠ 0) : x * Ideal.div 1 y = Ideal.div x y := by
  unfold Ideal.div
  rw [if_neg hy, if_neg hy, one_mul]

/-! ## One entry, quantised -/

/-- Round to the nearest integer, ties to even, then clamp to [-127, 127] (the two bounds kept as their patterns). -/
def clampRound (y : EReal) : EReal :=
  min (Ideal.ofBits .f32 0x42FE0000#32) (max (Ideal.ofBits .f32 0xC2FE0000#32) (Ideal.liftRound Ideal.roundHalfEven y))

/-- An entry x quantised at scale s. -/
def quant (s x : EReal) : EReal := clampRound (Ideal.div x (scale s))

/-- Quantising through the reciprocal of the clamped scale gives the same entry. -/
theorem clampRound_mul_recip (s x : EReal) : clampRound (x * recip s) = quant s x := by
  unfold quant
  rw [recip_eq, mul_recip_eq_div x (scale s) (scale_ne_zero s)]

/-! ## The whole result -/

/-- The result at row p and column q: the quantised row p times column q of the weights, plus the bias at q. -/
def entry (X : (⟨2, ![8192, 2048]⟩ : Shape).Idx → EReal) (W : (⟨2, ![2048, 2048]⟩ : Shape).Idx → EReal) (s : EReal)
    (b : (⟨1, ![2048]⟩ : Shape).Idx → EReal) (p : Fin 8192) (q : Fin 2048) : EReal :=
  (∑ k : Fin 2048, quant s (X (ix2 p k)) * W (ix2 k q)) + b (ix1 q)

/-- The result array, 8192 token rows by 2048 output features. -/
def G (X : (⟨2, ![8192, 2048]⟩ : Shape).Idx → EReal) (W : (⟨2, ![2048, 2048]⟩ : Shape).Idx → EReal) (s : EReal)
    (b : (⟨1, ![2048]⟩ : Shape).Idx → EReal) : (⟨2, ![8192, 2048]⟩ : Shape).Idx → EReal :=
  fun j => entry X W s b ⟨(j 0).val, idx2_lt0 j⟩ ⟨(j 1).val, idx2_lt1 j⟩

/-- At an index given by its coordinates. -/
theorem G_ix2 (X : (⟨2, ![8192, 2048]⟩ : Shape).Idx → EReal) (W : (⟨2, ![2048, 2048]⟩ : Shape).Idx → EReal) (s : EReal)
    (b : (⟨1, ![2048]⟩ : Shape).Idx → EReal) (p : Fin 8192) (q : Fin 2048) :
    G X W s b (ix2 p q) = entry X W s b p q := rfl

end Cert.QuantLinear

end
-- ==== Proof.Entry.lean ====
/-
  The arrays the kernel's region finds, in terms of the program's arguments.

  Before the region the program reshapes the tokens [4, 2048, 2048] to 8192 rows of 2048 features, narrows the weights'
  float format (the identity on extended reals), reshapes the bias to a 1-by-2048 row, and computes the reciprocal
  1 / max(s, ε) of the clamped scale, reshaped to a 1-by-1 array. Each of the four staged arrays is read here once from
  that prefix, and then at an index.
-/
import proofs.«119753_j46505905881434_2_alg».proof.Proof.Gen.KernelIdeal.Frame
import proofs.«119753_j46505905881434_2_alg».proof.Proof.Spec
import Idealize.ShloMosaic.Lib.StableHlo.Run
import Idealize.ShloMosaic.Lib.ValueLayout
import Idealize.ShloMosaic.Lib.Pipeline.Value

noncomputable section

namespace Cert.KernelIdeal.BlockValue

open Cert.KernelIdeal Cert.KernelIdeal.Gen Idealize.ShloMosaic Idealize.ShloMosaic.TcCoe Idealize.SL.Sem
open Idealize.ShloMosaic.StableHlo Idealize.ShloMosaic.ValueIdx
open Cert.QuantLinear

variable (m : (ℓ : Loc nD τ sig) → Buf (Elt Ideal) ℓ)

/-- The token rows: the first argument reshaped to 8192 by 2048. -/
def rows (c : Dev nD) : FVec Ideal S8192x2048 .f32 :=
  shapeCast S8192x2048 (m ((c : Thread nD τ).loc main_arg0)) shapeCasts_S4x2048x2048_S8192x2048

/-- The staged token array is that reshape. -/
theorem V_rows (c : Dev nD) : (V m c main_v0 : S8192x2048.Idx → EReal) = rows m c := by
  show StableHlo.after hostOps0 (fun b => m (c, b)) (Proc.devRef .tc main_v0) = _
  after_results
  rfl

/-- The staged weights are the second argument, its float format narrowed: the same extended reals. -/
theorem V_weights (c : Dev nD) : (V m c main_v5 : S2048x2048.Idx → EReal) = m ((c : Thread nD τ).loc main_arg1) := by
  show StableHlo.after hostOps0 (fun b => m (c, b)) (Proc.devRef .tc main_v5) = _
  after_results
  rfl

/-- The staged bias row is the fourth argument with a unit leading axis. -/
theorem V_bias (c : Dev nD) :
    (V m c main_v4 : S1x2048.Idx → EReal) = shapeCast S1x2048 (m ((c : Thread nD τ).loc main_arg3)) shapeCasts_S2048_S1x2048 := by
  show StableHlo.after hostOps0 (fun b => m (c, b)) (Proc.devRef .tc main_v4) = _
  after_results
  rfl

/-- Read at column q it is the bias at q. -/
theorem V_bias_apply (c : Dev nD) (q : Fin 2048) :
    (V m c main_v4 : S1x2048.Idx → EReal) (ix2 (0 : Fin 1) q) = m ((c : Thread nD τ).loc main_arg3) (ix1 q) := by
  rw [V_bias]
  exact shapeCast_a_1a_apply _ _ (0 : Fin 1) q

/-- The staged 1-by-1 array is the quotient of the float 1.0 by the scale clamped below by ε, reshaped. -/
theorem V_recip (c : Dev nD) :
    (V m c main_v3 : S1x1.Idx → EReal)
      = shapeCast S1x1 (Host.divf (F := Ideal) (constant (F := Ideal) S_ .f32 0x3F800000#32)
          (maximumf (m ((c : Thread nD τ).loc main_arg2)) (constant (F := Ideal) S_ .f32 0x322BCC77#32))) shapeCasts_S_S1x1 := by
  show StableHlo.after hostOps0 (fun b => m (c, b)) (Proc.devRef .tc main_v3) = _
  after_results
  rfl

/-- Its one entry is the reciprocal of the clamped scale. -/
theorem V_recip_apply (c : Dev nD) :
    (V m c main_v3 : S1x1.Idx → EReal) (ix2 (0 : Fin 1) (0 : Fin 1)) = recip (m ((c : Thread nD τ).loc main_arg2) ix0) := by
  rw [V_recip]
  refine (shapeCast_apply _ shapeCasts_S_S1x1 (ix2 (0 : Fin 1) (0 : Fin 1)) ix0 ?_).trans rfl
  rw [Shape.rowMajor_val_two]
  rfl

end Cert.KernelIdeal.BlockValue

end
-- ==== Proof.LibMatmul.lean ====
/-
  A matrix product into a zero accumulator, read at an index, as a plain sum of products over the contracted axis.

  For a product of an n-by-K array with a K-by-M array whose dimension numbers contract the left operand's columns
  against the right operand's rows, the entry at (p, q) is the sum over k of left(p, k) · right(k, q). The four facts
  about the dimension numbers that say so (which coordinate of each operand index comes from the output index and which
  from the contraction index) are taken as hypotheses, since each printed record proves them by unfolding.
-/
import Idealize.ShloMosaic.PureOps.Ideal.Laws
import Idealize.ShloMosaic.Lib.ValueIdx

noncomputable section

open scoped BigOperators

namespace Cert.Lib.Matmul

open Idealize.ShloMosaic Idealize.ShloMosaic.ValueIdx

/-- A kernel's matrix product into the zero splat, at the ideal values, read at `(p, q)`: the sum over the contracted
    axis of the left operand's row `p` times the right operand's column `q`. -/
theorem matmul_zero_ix2 {n K M : ℕ} {φ₁ φ₂ : FTy}
    (d : DotDims (⟨2, ![n, K]⟩ : Shape) (⟨2, ![K, M]⟩ : Shape) (⟨2, ![n, M]⟩ : Shape)) (prec : Option ContractPrecision)
    (hr : d.contr.rank = 1) (hs : d.contr.size ⟨0, by omega⟩ = K)
    (hl0 : ∀ j c, (d.lhsIdx j c 0).val = (j 0).val) (hl1 : ∀ j c, (d.lhsIdx j c 1).val = (c ⟨0, by omega⟩).val)
    (hr0 : ∀ j c, (d.rhsIdx j c 0).val = (c ⟨0, by omega⟩).val) (hr1 : ∀ j c, (d.rhsIdx j c 1).val = (j 1).val)
    (lhs : FVec Ideal (⟨2, ![n, K]⟩ : Shape) φ₁) (rhs : FVec Ideal (⟨2, ![K, M]⟩ : Shape) φ₂) (p : Fin n) (q : Fin M) :
    FloatOps.matmul d prec lhs rhs (constant (⟨2, ![n, M]⟩ : Shape) .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-- The host's `dot_general` with the same dimension numbers, read the same way. -/
theorem dotGeneral_ix2 {n K M : ℕ} {φ₁ φ₂ : FTy}
    (d : DotDims (⟨2, ![n, K]⟩ : Shape) (⟨2, ![K, M]⟩ : Shape) (⟨2, ![n, M]⟩ : Shape)) (prec : Option ContractPrecision)
    (sched : HostSchedule)
    (hr : d.contr.rank = 1) (hs : d.contr.size ⟨0, by omega⟩ = K)
    (hl0 : ∀ j c, (d.lhsIdx j c 0).val = (j 0).val) (hl1 : ∀ j c, (d.lhsIdx j c 1).val = (c ⟨0, by omega⟩).val)
    (hr0 : ∀ j c, (d.rhsIdx j c 0).val = (c ⟨0, by omega⟩).val) (hr1 : ∀ j c, (d.rhsIdx j c 1).val = (j 1).val)
    (lhs : FVec Ideal (⟨2, ![n, K]⟩ : Shape) φ₁) (rhs : FVec Ideal (⟨2, ![K, M]⟩ : Shape) φ₂) (p : Fin n) (q : Fin M) :
    FloatOps.dotGeneral d prec sched lhs rhs (ix2 p q) = ∑ k : Fin K, lhs (ix2 p k) * rhs (ix2 k q) := by
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.Lib.Matmul

end
-- ==== Proof.Payload.lean ====
/-
  What the kernel body stores, read at one entry of the block.

  At a grid point the body holds a block of 512 token rows (each 2048 features), the whole weight matrix, the bias as a
  1-by-2048 row and the reciprocal scale as a 1-by-1 array. It stores, at row r and column q of the block,

      Σ_k clamp(round(x(r, k) · c)) · w(k, q) + bias(0, q),        c the 1-by-1 array's one entry:

  the product, rounding and clamping are entry by entry; the matrix product into a zero accumulator is the plain sum of
  products over the contracted axis; the one-row bias is read at its column whatever the row; same-shape casts and the
  change of float format are the identity.
-/
import proofs.«119753_j46505905881434_2_alg».proof.Proof.Gen.KernelIdeal.Skeleton
import proofs.«119753_j46505905881434_2_alg».proof.Proof.Spec
import proofs.«119753_j46505905881434_2_alg».proof.Proof.LibMatmul
import Idealize.ShloMosaic.Lib.ValueLayout
import Idealize.ShloMosaic.Lib.Pipeline.Value

noncomputable section

open scoped BigOperators

namespace Cert.KernelIdeal.BlockValue

open Cert.KernelIdeal Cert.KernelIdeal.Gen Idealize.ShloMosaic Idealize.ShloMosaic.ValueIdx
open Cert.QuantLinear

/-! ## The dimension numbers of the body's matrix product -/

theorem dot_rank : dot_S512x2048_S2048x2048_S512x2048_1_0_0_1_n_n.contr.rank = 1 := rfl
theorem dot_size : dot_S512x2048_S2048x2048_S512x2048_1_0_0_1_n_n.contr.size ⟨0, by rw [dot_rank]; omega⟩ = 2048 := rfl

/-- The left operand's row comes from the output index … -/
theorem lhs_row (i : S512x2048.Idx) (c : dot_S512x2048_S2048x2048_S512x2048_1_0_0_1_n_n.contr.Idx) :
    (dot_S512x2048_S2048x2048_S512x2048_1_0_0_1_n_n.lhsIdx i c 0).val = (i 0).val := by
  unfold DotDims.lhsIdx
  rw [dif_neg (show ¬(0 : Fin S512x2048.rank) ∈ dot_S512x2048_S2048x2048_S512x2048_1_0_0_1_n_n.lhsBatch by decide),
    dif_pos (show (0 : Fin S512x2048.rank) ∈ dot_S512x2048_S2048x2048_S512x2048_1_0_0_1_n_n.lhsNonContracting by decide)]
  rfl
/-- … its column from the contraction index … -/
theorem lhs_col (i : S512x2048.Idx) (c : dot_S512x2048_S2048x2048_S512x2048_1_0_0_1_n_n.contr.Idx) :
    (dot_S512x2048_S2048x2048_S512x2048_1_0_0_1_n_n.lhsIdx i c 1).val = (c ⟨0, by decide⟩).val :=
  dot_S512x2048_S2048x2048_S512x2048_1_0_0_1_n_n.lhsIdx_val_of_single rfl i c
/-- … the right operand's row from the contraction index … -/
theorem rhs_row (i : S512x2048.Idx) (c : dot_S512x2048_S2048x2048_S512x2048_1_0_0_1_n_n.contr.Idx) :
    (dot_S512x2048_S2048x2048_S512x2048_1_0_0_1_n_n.rhsIdx i c 0).val = (c ⟨0, by decide⟩).val :=
  dot_S512x2048_S2048x2048_S512x2048_1_0_0_1_n_n.rhsIdx_val_of_single rfl i c
/-- … and its column from the output index. -/
theorem rhs_col (i : S512x2048.Idx) (c : dot_S512x2048_S2048x2048_S512x2048_1_0_0_1_n_n.contr.Idx) :
    (dot_S512x2048_S2048x2048_S512x2048_1_0_0_1_n_n.rhsIdx i c 1).val = (i 1).val := by
  unfold DotDims.rhsIdx
  rw [dif_neg (show ¬(1 : Fin S2048x2048.rank) ∈ dot_S512x2048_S2048x2048_S512x2048_1_0_0_1_n_n.rhsBatch by decide),
    dif_pos (show (1 : Fin S2048x2048.rank) ∈ dot_S512x2048_S2048x2048_S512x2048_1_0_0_1_n_n.rhsNonContracting by decide)]
  rfl

/-! ## The stored value as one expression -/

/-- The rows of the block after quantising: entry by entry, the product with the reciprocal scale, rounded, clamped. -/
def quantRows (c : Ideal .f32) (x : FVec Ideal S512x2048 .f32) : FVec Ideal S512x2048 .f32 :=
  minimumf (broadcast S512x2048 (Scalar.ofBits .f32 0x42FE0000#32))
    (maximumf (broadcast S512x2048 (Scalar.ofBits .f32 0xC2FE0000#32)) (roundeven (mulf x (broadcast S512x2048 c))))

/-- At an entry it is the specification's round-and-clamp of the product. -/
theorem quantRows_apply (c : Ideal .f32) (x : FVec Ideal S512x2048 .f32) (i : S512x2048.Idx) :
    quantRows c x i = clampRound (x i * c) := rfl

/-- The body's stored value, its operations in order. -/
theorem payload_eq (v0 : FVec Ideal S1x1 .f32) (v2 : FVec Ideal S512x2048 .f32) (v12 : FVec Ideal S2048x2048 .bf16)
    (v15 : FVec Ideal S1x2048 .f32) :
    k0_pay1 (F := Ideal) v0 v2 v12 v15
      = addf (matmul dot_S512x2048_S2048x2048_S512x2048_1_0_0_1_n_n none
            (truncf .bf16 (quantRows (extractAt ![0, 0] v0 inpos_S1x1_p0_0)
              (shapeCast S512x2048 v2 shapeCasts_S512x2048_S512x2048 : FVec Ideal S512x2048 .f32)) bitsLt_bf16_f32 : FVec Ideal S512x2048 .bf16)
            (shapeCast S2048x2048 v12 shapeCasts_S2048x2048_S2048x2048 : FVec Ideal S2048x2048 .bf16)
            (constant S512x2048 .f32 0x00000000#32))
          (broadcastTo S512x2048 (shapeCast S1x2048 v15 shapeCasts_S1x2048_S1x2048 : FVec Ideal S1x2048 .f32)
            broadcasts_S1x2048_S512x2048) := rfl

/-- The 1-by-1 array's one entry, as the body extracts it. -/
theorem extract_one (v0 : FVec Ideal S1x1 .f32) : extractAt ![0, 0] v0 inpos_S1x1_p0_0 = v0 (ix2 (0 : Fin 1) (0 : Fin 1)) := by
  unfold extractAt
  refine congrArg v0 (funext fun a => Fin.ext ?_)
  match a with
  | ⟨0, _⟩ => rfl
  | ⟨1, _⟩ => rfl

/-- THE STORED VALUE AT ROW r, COLUMN q OF THE BLOCK. -/
theorem payload_at (v0 : FVec Ideal S1x1 .f32) (v2 : FVec Ideal S512x2048 .f32) (v12 : FVec Ideal S2048x2048 .bf16)
    (v15 : FVec Ideal S1x2048 .f32) (r : Fin 512) (q : Fin 2048) :
    k0_pay1 (F := Ideal) v0 v2 v12 v15 (ix2 r q)
      = (∑ k : Fin 2048, clampRound (v2 (ix2 r k) * v0 (ix2 (0 : Fin 1) (0 : Fin 1))) * v12 (ix2 k q))
        + v15 (ix2 (0 : Fin 1) q) := by
  rw [payload_eq, addf_apply, shapeCast_self, shapeCast_self, shapeCast_self, broadcastTo_1b_ab_apply, extract_one]
  refine congrArg (· + v15 (ix2 (0 : Fin 1) q)) ?_
  refine (Cert.Lib.Matmul.matmul_zero_ix2 (φ₁ := .bf16) (φ₂ := .bf16) dot_S512x2048_S2048x2048_S512x2048_1_0_0_1_n_n none
    dot_rank dot_size lhs_row lhs_col rhs_row rhs_col
    (truncf .bf16 (quantRows (v0 (ix2 (0 : Fin 1) (0 : Fin 1))) v2) bitsLt_bf16_f32) v12 r q).trans ?_
  rfl

end Cert.KernelIdeal.BlockValue

end
-- ==== Proof.Blocks.lean ====
/-
  From blocks to the array: after the region the output array is the specified result.

  The grid has 16 points; point t handles the 512 token rows 512·t … 512·t + 511. Its token block is those rows of the
  token array; the weights, the bias row and the reciprocal scale are the same whole arrays at every point; its output
  block is the same 512 rows of the output, all 2048 columns. So what point t writes back at (r, q) is the specified
  entry at row 512·t + r, column q — the reciprocal product turned into the quotient by the one law — and since every row
  lies in exactly the block of the point (row / 512), the blocks cover the output array.
-/
import proofs.«119753_j46505905881434_2_alg».proof.Proof.Gen.KernelIdeal.Frame
import proofs.«119753_j46505905881434_2_alg».proof.Proof.Entry
import proofs.«119753_j46505905881434_2_alg».proof.Proof.Payload
import Idealize.ShloMosaic.Lib.Pipeline.Value

noncomputable section

open scoped BigOperators

namespace Cert.KernelIdeal.BlockValue

open Cert.KernelIdeal Cert.KernelIdeal.Gen Idealize.ShloMosaic Idealize.ShloMosaic.TcCoe Idealize.SL.Sem
open Idealize.ShloMosaic.ValueIdx
open Idealize.ShloMosaic.Pipeline (Dat)
open Cert.QuantLinear

variable (m : (ℓ : Loc nD τ sig) → Buf (Elt Ideal) ℓ)

/-- The specified result of this device's arguments: the output array's contents after the region. -/
def result (c : Dev nD) : S8192x2048.Idx → EReal :=
  G (rows m c) (m ((c : Thread nD τ).loc main_arg1)) (m ((c : Thread nD τ).loc main_arg2) ix0)
    (m ((c : Thread nD τ).loc main_arg3))

theorem zero_offsets : (![0, 0] : Fin 2 → Nat) = fun _ => 0 := funext fun a => by fin_cases a <;> rfl

/-! ## Where each window's block sits, decided over the 16 points -/

/-- The token window moves with the output window along the rows; every other block index is zero; the output's row
    block index is at most 15. -/
theorem index_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 15 :=
  (by decide +kernel : ∀ t : Fin grid0.N, _)

/-- Every one of the 16 row blocks is some point's. -/
theorem index_onto : ∀ b : Fin 16, ∃ t : Fin cfg0.N, win0_4.index t = ![b.val, 0] :=
  (by decide +kernel : ∀ b : Fin 16, ∃ t : Fin grid0.N, win0_4.index t = ![b.val, 0])

/-! ## Each input block read where the output's block says -/

/-- Row r of point t's token block is row P = (block index) · 512 + r of the token rows. -/
theorem rows_block (c : Dev nD) (t : Fin cfg0.N) (r : Fin 512) (k : Fin 2048) (P : Fin 8192)
    (hP : P.val = win0_4.index t (0 : Fin 2) * 512 + r.val) :
    iblk m c 0 t (ix2 r k) = rows m c (ix2 P k) := by
  obtain ⟨e0, e1, -⟩ := index_facts t
  show V m c main_v0 (((cfg0.win 0).blk t).view.emb (ix2 r k)) = _
  rw [V_rows]
  refine congrArg (rows m c) (funext fun a => Fin.ext ?_)
  match a with
  | ⟨0, _⟩ => show win0_0.index t (0 : Fin 2) * 512 + 1 * r.val = P.val; omega
  | ⟨1, _⟩ => show win0_0.index t (1 : Fin 2) * 2048 + 1 * k.val = k.val; omega

/-- The weight block is the whole weight matrix. -/
theorem weights_block (c : Dev nD) (t : Fin cfg0.N) (k : Fin 2048) (q : Fin 2048) :
    iblk m c 1 t (ix2 k q) = m ((c : Thread nD τ).loc main_arg1) (ix2 k q) := by
  obtain ⟨-, -, e2, e3, -⟩ := index_facts t
  show V m c main_v5 (((cfg0.win 1).blk t).view.emb (ix2 k q)) = _
  rw [V_weights]
  refine congrArg (m ((c : Thread nD τ).loc main_arg1)) (funext fun a => Fin.ext ?_)
  match a with
  | ⟨0, _⟩ => show win0_1.index t (0 : Fin 2) * 2048 + 1 * k.val = k.val; omega
  | ⟨1, _⟩ => show win0_1.index t (1 : Fin 2) * 2048 + 1 * q.val = q.val; omega

/-- The bias block is the whole bias row. -/
theorem bias_block (c : Dev nD) (t : Fin cfg0.N) (q : Fin 2048) :
    iblk m c 2 t (ix2 (0 : Fin 1) q) = m ((c : Thread nD τ).loc main_arg3) (ix1 q) := by
  obtain ⟨-, -, -, -, e4, e5, -⟩ := index_facts t
  show V m c main_v4 (((cfg0.win 2).blk t).view.emb (ix2 (0 : Fin 1) q)) = _
  refine Eq.trans (congrArg (V m c main_v4) (funext fun a => Fin.ext ?_)) (V_bias_apply m c q)
  match a with
  | ⟨0, _⟩ => show win0_2.index t (0 : Fin 2) * 1 + 1 * 0 = 0; omega
  | ⟨1, _⟩ => show win0_2.index t (1 : Fin 2) * 2048 + 1 * q.val = q.val; omega

/-- The 1-by-1 block's entry is the reciprocal of the clamped scale. -/
theorem recip_block (c : Dev nD) (t : Fin cfg0.N) :
    iblk m c 3 t (ix2 (0 : Fin 1) (0 : Fin 1)) = recip (m ((c : Thread nD τ).loc main_arg2) ix0) := by
  obtain ⟨-, -, -, -, -, -, e6, e7, -⟩ := index_facts t
  show V m c main_v3 (((cfg0.win 3).blk t).view.emb (ix2 (0 : Fin 1) (0 : Fin 1))) = _
  refine Eq.trans (congrArg (V m c main_v3) (funext fun a => Fin.ext ?_)) (V_recip_apply m c)
  match a with
  | ⟨0, _⟩ => show win0_3.index t (0 : Fin 2) * 1 + 1 * 0 = 0; omega
  | ⟨1, _⟩ => show win0_3.index t (1 : Fin 2) * 1 + 1 * 0 = 0; omega

/-- Entry (r, q) of point t's output block sits at row P, column q of the output array. -/
theorem out_block (t : Fin cfg0.N) (r : Fin 512) (q : Fin 2048) (P : Fin 8192)
    (hP : P.val = win0_4.index t (0 : Fin 2) * 512 + r.val) :
    ((cfg0.win 4).blk t).view.emb (ix2 r q) = (ix2 P q : S8192x2048.Idx) := by
  obtain ⟨-, -, -, -, -, -, -, -, e8, -⟩ := index_facts t
  funext a; apply Fin.ext
  match a with
  | ⟨0, _⟩ => show win0_4.index t (0 : Fin 2) * 512 + 1 * r.val = P.val; omega
  | ⟨1, _⟩ => show win0_4.index t (1 : Fin 2) * 2048 + 1 * q.val = q.val; omega

/-! ## What a point writes back -/

/-- WHAT POINT t WRITES BACK is block t of the specified result. -/
theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after0_4]
  unfold out0_4
  rw [View.canon_unit_zero zero_offsets]
  simp only [View.ld_unit_zero (S := S512x2048) zero_offsets, View.ld_unit_zero (S := S2048x2048) zero_offsets,
    View.ld_unit_zero (S := S1x2048) zero_offsets, View.ld_unit_zero (S := S1x1) zero_offsets]
  funext y
  obtain ⟨r, q, rfl⟩ : ∃ (r : Fin 512) (q : Fin 2048), y = ix2 r q := ⟨y 0, y 1, eq_ix2 y⟩
  have hle : win0_4.index t (0 : Fin 2) ≤ 15 := (index_facts t).2.2.2.2.2.2.2.2.2
  have hr : r.val < 512 := r.isLt
  let P : Fin 8192 := ⟨win0_4.index t (0 : Fin 2) * 512 + r.val, by omega⟩
  show k0_pay1 (iblk m c 3 t) (iblk m c 0 t) (iblk m c 1 t) (iblk m c 2 t) (ix2 r q)
    = result m c (((cfg0.win 4).blk t).view.emb (ix2 r q))
  refine (payload_at (iblk m c 3 t) (iblk m c 0 t) (iblk m c 1 t) (iblk m c 2 t) r q).trans ?_
  rw [out_block t r q P rfl, bias_block m c t q, recip_block m c t]
  unfold result
  rw [G_ix2]
  unfold entry
  refine congrArg (· + m ((c : Thread nD τ).loc main_arg3) (ix1 q)) (Finset.sum_congr rfl fun k _ => ?_)
  rw [rows_block m c t r k P rfl, weights_block m c t k q, clampRound_mul_recip]

/-! ## The blocks cover the array -/

/-- An index of the output array is in point t's block iff each coordinate is in the block's range on its axis. -/
theorem mem_blk (t : Fin cfg0.N) (i : S8192x2048.Idx) :
    i ∈ ((cfg0.win 4).blk t).view.set ↔ ∀ a : Fin 2, win0_4.index t a * S512x2048.size a ≤ (i a).val
      ∧ (i a).val < win0_4.index t a * S512x2048.size a + S512x2048.size a := by
  show i ∈ ((View.whole main_v6).slice (win0_4.rect t)).set ↔ _
  rw [View.set_slice_whole, Rect.mem_set_unit]
  exact Iff.rfl

/-- Every index is in the block of the point that handles its row's group of 512. -/
theorem cover (i : S8192x2048.Idx) :
    ∃ t : Fin cfg0.N, (cfg0.win 4).flush t = true ∧ i ∈ ((cfg0.win 4).blk t).view.set := by
  have hi0 : (i 0).val < 8192 := (i 0).isLt
  have hi1 : (i 1).val < 2048 := (i 1).isLt
  obtain ⟨t, ht⟩ := index_onto ⟨(i 0).val / 512, by omega⟩
  have q0 : win0_4.index t (0 : Fin 2) = (i 0).val / 512 := congrFun ht 0
  have q1 : win0_4.index t (1 : Fin 2) = 0 := congrFun ht 1
  refine ⟨t, flush0_4 t, ?_⟩
  rw [mem_blk]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 2048 ≤ (i 1).val ∧ (i 1).val < win0_4.index t (1 : Fin 2) * 2048 + 2048
    omega

/-- THE OUTPUT ARRAY AFTER THE REGION is the specified result. -/
theorem final (c : Dev nD) : (dats m 0 c).arrAt 4 cfg0.N = result m c :=
  (dats m 0 c).arrAt_eq_of_cover 4 (result m c) (fun t _ => flushed_eq m c t) cover

end Cert.KernelIdeal.BlockValue

end
-- ==== Proof.KernelRun.lean ====
/-
  The kernel program's run, with its result named.

  After the region the program reshapes the 8192-by-2048 output array back to [4, 2048, 2048]. The region leaves the
  output array at the specified result, so the program's result is that array reshaped; the four arguments are untouched.
-/
import proofs.«119753_j46505905881434_2_alg».proof.Proof.Blocks
import Idealize.ShloMosaic.Lib.StableHlo.Run

noncomputable section

namespace Cert.KernelIdeal.BlockValue

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-- The program's result buffer after the lines that follow the region: the region's output array, reshaped. -/
theorem tail_eq (c : Dev nD) :
    Pipeline.afterTail₀ cfgs (dats m) 0 (V0 m) [hostOps1] c main_v7
      = shapeCast S4x2048x2048 (result m c) shapeCasts_S8192x2048_S4x2048x2048 := by
  unfold Pipeline.afterTail₀
  show StableHlo.after hostOps1 _ (Proc.devRef .tc main_v7) = _
  after_results
  exact congrArg (fun x => shapeCast S4x2048x2048 x shapeCasts_S8192x2048_S4x2048x2048)
    ((Pipeline.withArrays_arr spec0 launch0.win.arr_inj c _ _ 4).trans (final m c))

/-- Every weakly fair execution of the kernel program terminates with its result at the specified array, reshaped, and
    its arguments unchanged. -/
theorem run : θ_run defs (onTc (τ := τ) (main (F := Ideal))) ⟨m, fun _ => 0, ρ⟩ fun r => ∀ c : Dev nD,
      r.2.mem ((c.tc : Thread nD τ).loc main_v7) = shapeCast S4x2048x2048 (result m c) shapeCasts_S8192x2048_S4x2048x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v7 (Pipeline.mem_restRefs_of main_v7 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.BlockValue

end
-- ==== Proof.RefValue.lean ====
/-
  The reference computes the specified result.

  Before its final reshape the reference holds, at row p and column q, the sum over k of the quantised entry (p, k)
  times the weight (k, q), plus the bias at q. Each quantised entry is min(127, max(-127, round(x / max(s, ε)))) of the
  token entry x, which is the specification's quantiser verbatim: the reference divides by the clamped scale, so no law is
  needed on this side, only reading each stage at an index.
-/
import proofs.«119753_j46505905881434_2_alg».proof.Proof.Gen.ReferenceIdeal.Read
import proofs.«119753_j46505905881434_2_alg».proof.Proof.Spec
import Idealize.ShloMosaic.Lib.Pipeline.Value

noncomputable section

open scoped BigOperators

namespace Cert.ReferenceIdeal.RefValue

open Cert.ReferenceIdeal Cert.ReferenceIdeal.Gen Cert.ReferenceIdeal.Read Idealize.ShloMosaic Idealize.ShloMosaic.ValueIdx
open Cert.QuantLinear

/-- The scale as the reference reads it: its rank-0 reshape is the identity, so at the one index it is the argument. -/
theorem scale_stage (x2 : (⟨S_, .f32⟩ : BufTy).Contents (Elt Ideal)) (i : S_.Idx) :
    val_main_v1 (F := Ideal) x2 i = x2 ix0 := by
  unfold val_main_v1
  rw [shapeCast_self, eq_ix0 i]

/-- One quantised entry of the reference, at row p and feature k, is the specification's. -/
theorem quant_stage (x0 : (⟨S4x2048x2048, .f32⟩ : BufTy).Contents (Elt Ideal)) (x2 : (⟨S_, .f32⟩ : BufTy).Contents (Elt Ideal))
    (p : Fin 8192) (k : Fin 2048) :
    val_main_v6 (F := Ideal) x0 x2 (ix2 p k) = quant (x2 ix0) (val_main_v0 (F := Ideal) x0 (ix2 p k)) := by
  rw [val_main_v6_apply, val_main_call1_v4_apply, val_main_call1_v3_apply, val_main_cst_1_apply,
    val_main_call1_v2_apply, val_main_call1_v1_apply, val_main_call1_v0_apply, val_main_cst_0_apply,
    val_main_v5_apply, val_main_v4_apply, val_main_v3_apply, val_main_v2_apply, val_main_cst_apply, scale_stage]
  rfl

/-- The reference's stage before the final reshape is the specified array of its arguments. -/
theorem stage_eq (x0 : (⟨S4x2048x2048, .f32⟩ : BufTy).Contents (Elt Ideal)) (x1 : (⟨S2048x2048, .f32⟩ : BufTy).Contents (Elt Ideal))
    (x2 : (⟨S_, .f32⟩ : BufTy).Contents (Elt Ideal)) (x3 : (⟨S2048, .f32⟩ : BufTy).Contents (Elt Ideal)) :
    val_main_v10 (F := Ideal) x0 x1 x2 x3 = G (val_main_v0 (F := Ideal) x0) x1 (x2 ix0) x3 := by
  funext j
  obtain ⟨p, q, rfl⟩ : ∃ (p : Fin 8192) (q : Fin 2048), j = ix2 p q := ⟨j 0, j 1, eq_ix2 j⟩
  rw [G_ix2, val_main_v10_apply, val_main_v7_apply, val_main_v9_apply, val_main_v8_apply]
  unfold entry
  have el : ∀ k : Fin 2048, lidx_main_v7 (ix2 p q) k = ix2 p k := fun k => funext fun a => Fin.ext (by
    match a with
    | ⟨0, _⟩ => rfl
    | ⟨1, _⟩ => rfl)
  have er : ∀ k : Fin 2048, ridx_main_v7 (ix2 p q) k = ix2 k q := fun k => funext fun a => Fin.ext (by
    match a with
    | ⟨0, _⟩ => rfl
    | ⟨1, _⟩ => rfl)
  have eb : idx_main_v8 (idx_main_v9 (ix2 p q)) = ix1 q := funext fun a => Fin.ext (by
    match a with
    | ⟨0, _⟩ => rfl)
  rw [eb]
  show (∑ k : Fin 2048, val_main_v6 (F := Ideal) x0 x2 (lidx_main_v7 (ix2 p q) k) * x1 (ridx_main_v7 (ix2 p q) k)) + x3 (ix1 q) = _
  refine congrArg (· + x3 (ix1 q)) (Finset.sum_congr rfl fun k _ => ?_)
  rw [el k, er k, quant_stage]

/-- So the reference's result is the specified array, reshaped to batch by sequence by features. -/
theorem result_eq (x0 : (⟨S4x2048x2048, .f32⟩ : BufTy).Contents (Elt Ideal)) (x1 : (⟨S2048x2048, .f32⟩ : BufTy).Contents (Elt Ideal))
    (x2 : (⟨S_, .f32⟩ : BufTy).Contents (Elt Ideal)) (x3 : (⟨S2048, .f32⟩ : BufTy).Contents (Elt Ideal)) :
    val_main_v11 (F := Ideal) x0 x1 x2 x3
      = shapeCast S4x2048x2048 (G (val_main_v0 (F := Ideal) x0) x1 (x2 ix0) x3) shapeCasts_S8192x2048_S4x2048x2048 := by
  unfold val_main_v11
  rw [stage_eq]

end Cert.ReferenceIdeal.RefValue

end
-- ==== Proof.lean ====
/-
  The certificate: a scalar-quantised linear layer against its reference, over the extended reals.

  Both programs quantise each token entry with one scalar scale s — divide by max(s, ε), round to nearest (ties to
  even), clamp to [-127, 127] — multiply the quantised tokens by the weight matrix and add the bias. The kernel
  multiplies by the reciprocal 1 / max(s, ε), computed once, where the reference divides; since max(s, ε) ≥ ε > 0 is never
  zero, x · (1 / y) = x / y for every extended real x, so no finiteness of the inputs is used. The kernel tiles the 8192
  token rows into 16 blocks of 512 and forms each block's matrix product at once; the reference forms one product of all
  rows: at exact values both are the same sums of products. Changes of float format are the identity.

  The three frames are the generated ones (the reference's from its generated run); the idealization rewrote nothing, so
  its preservation claim is trivial; the value claim sets the kernel program's run (Proof/KernelRun.lean) beside the
  reference's (Proof/RefValue.lean), both at the one specified array (Proof/Spec.lean).
-/
import proofs.«119753_j46505905881434_2_alg».proof.Defs
import proofs.«119753_j46505905881434_2_alg».proof.Proof.Gen.Kernel
import proofs.«119753_j46505905881434_2_alg».proof.Proof.Gen.Kernel.Skeleton
import proofs.«119753_j46505905881434_2_alg».proof.Proof.Gen.Kernel.Launch
import proofs.«119753_j46505905881434_2_alg».proof.Proof.Gen.Kernel.Points
import proofs.«119753_j46505905881434_2_alg».proof.Proof.Gen.Kernel.Frame
import proofs.«119753_j46505905881434_2_alg».proof.Proof.Gen.KernelIdeal
import proofs.«119753_j46505905881434_2_alg».proof.Proof.Gen.KernelIdeal.Skeleton
import proofs.«119753_j46505905881434_2_alg».proof.Proof.Gen.KernelIdeal.Launch
import proofs.«119753_j46505905881434_2_alg».proof.Proof.Gen.KernelIdeal.Points
import proofs.«119753_j46505905881434_2_alg».proof.Proof.Gen.KernelIdeal.Frame
import proofs.«119753_j46505905881434_2_alg».proof.Proof.Gen.ReferenceIdeal
import proofs.«119753_j46505905881434_2_alg».proof.Proof.Gen.Pre_finite_inputs
import proofs.«119753_j46505905881434_2_alg».proof.Proof.Gen.ReferenceIdeal.Run
import proofs.«119753_j46505905881434_2_alg».proof.Proof.Gen.ReferenceIdeal.Read
import proofs.«119753_j46505905881434_2_alg».proof.Proof.KernelRun
import proofs.«119753_j46505905881434_2_alg».proof.Proof.RefValue
import Idealize.ShloMosaic.Adequacy
import Idealize.ShloMosaic.Init

noncomputable section

namespace Cert.Proof

open Idealize.ShloMosaic Idealize.SL.Sem

/-- The word-level kernel program runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- And the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the specified array of those arguments, reshaped
    to batch by sequence by features. -/
theorem algebraic : Cert.algebraic_KernelIdeal_ReferenceIdeal := by
  intro m ρ m' ρ' _ hagree
  refine ⟨fun c => shapeCast Cert.KernelIdeal.S4x2048x2048 (Cert.KernelIdeal.BlockValue.result m c)
    Cert.KernelIdeal.Gen.shapeCasts_S8192x2048_S4x2048x2048, Cert.KernelIdeal.BlockValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.result_eq,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
